-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S1x256x1024 : Shape := ⟨3, ![1, 256, 1024]⟩
abbrev S1x2048x1024 : Shape := ⟨3, ![1, 2048, 1024]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 26
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8192x1024, .f32⟩
  | .hbm, ⟨10, _⟩ => ⟨S8192x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S8192x1024, .bf16⟩
  | .hbm, ⟨20, _⟩ => ⟨S8192x1024, .bf16⟩
  | .hbm, ⟨21, _⟩ => ⟨S8192x1024, .bf16⟩
  | .hbm, ⟨22, _⟩ => ⟨S4x2048x1024, .bf16⟩
  | .hbm, ⟨23, _⟩ => ⟨S4x2048x1024, .bf16⟩
  | .hbm, ⟨24, _⟩ => ⟨S4x2048x1024, .bf16⟩
  | .hbm, ⟨25, _⟩ => ⟨S4x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1024x1024, .bf16⟩
  | .local _ .vmem, ⟨21, _⟩ => ⟨S1x1024, .f32⟩
  | .local _ .vmem, ⟨22, _⟩ => ⟨S1x256x1024, .f32⟩
  | .local _ .vmem, ⟨23, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S4x2048x1024_S8192x1024 : S4x2048x1024.ShapeCasts S8192x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  broadcasts_S1x1024_S256x1024 : S1x1024.Broadcasts S256x1024
  shapeCasts_S256x1024_S1x256x1024 : S256x1024.ShapeCasts S1x256x1024
  dot_S1024x1024_S1024x1024_S1024x1024_1_0_0_1_n_n_wf : DotDims.WF S1024x1024 S1024x1024 S1024x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x1024.size a
  hwx0_7 : ∀ i : grid0.Coords, EltTy.bits .bf16 = 32 ∨ (Rect.block (s := S8192x1024) S1024x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S8192x1024.size a
  hwx0_8 : ∀ i : grid0.Coords, EltTy.bits .bf16 = 32 ∨ (Rect.block (s := S8192x1024) S1024x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S8192x1024.size a
  hwx0_9 : ∀ i : grid0.Coords, EltTy.bits .bf16 = 32 ∨ (Rect.block (s := S8192x1024) S1024x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .bf16 = 32 ∨ (Rect.block (s := S4x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S4x2048x1024.size a
  hwx1_5 : ∀ i : grid1.Coords, EltTy.bits .f32 = 32 ∨ (Rect.block (s := S4x2048x1024) S1x256x1024.size (cc1_transform_5 i) (hinb1_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S1024x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S1024x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_2) S1024x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v11) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x2048, .f32⟩
  | .hbm, ⟨22, _⟩ => ⟨S_, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | .hbm, ⟨41, _⟩ => ⟨S4x2048x1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
/-
  The function both programs compute, stated once over the extended reals.

  For a batch entry `n` and a query position `s` the result row is

      out(n, s, ·) = ctx(n, s, ·) · Wo + bo,      ctx(n, s, e) = ∑ₜ p(n, s, t) · v(n, t, e),
      p(n, s, t)   = exp(σ(n, s, t) − maxₜ σ(n, s, ·)) / ∑ₜ' exp(σ(n, s, t') − maxₜ σ(n, s, ·)),
      σ(n, s, t)   = (∑_d q(n, s, d) · k(n, t, d)) · (1/8),

  with q, k, v the three affine images x · W + b of the input rows. Everything is written row by row
  over plain `Fin`-indexed families, so that a block of rows of one program and a batched array of the other
  are both read through the same definitions. Two laws relate the spellings of the two programs: dividing by
  the square root of 64 is multiplying by 1/8, on every extended real, and a maximum taken once more against
  the value the fold started from changes nothing.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- The scale 1/8 = 1/√64, as the binary32 word for 0.125. -/
abbrev eighth : EReal := Ideal.ofBits .f32 0x3E000000#32

/-- The value a row maximum starts from: the binary32 word of −∞. -/
abbrev floor : EReal := Ideal.ofBits .f32 0xFF800000#32

/-- Entry `f` of the row `x · W + b`. -/
def affineRow (x : Fin 1024 → EReal) (W : Fin 1024 → Fin 1024 → EReal) (b : Fin 1024 → EReal) (f : Fin 1024) : EReal :=
  (∑ d : Fin 1024, x d * W d f) + b f

/-- The scaled score of a query row against key row `t`. -/
def score (q : Fin 1024 → EReal) (K : Fin 2048 → Fin 1024 → EReal) (t : Fin 2048) : EReal :=
  (∑ d : Fin 1024, q d * K t d) * eighth

/-- The largest score of a row (a fold of `max` from `floor`). -/
def rowMax (σ : Fin 2048 → EReal) : EReal :=
  (Finset.univ : Finset (Fin 2048)).fold max floor σ

/-- The unnormalised weight of key `t`: the exponential of its score below the row's maximum. -/
def weight (σ : Fin 2048 → EReal) (t : Fin 2048) : EReal :=
  Ideal.exp (σ t - rowMax σ)

/-- The softmax weight of key `t`. -/
def prob (σ : Fin 2048 → EReal) (t : Fin 2048) : EReal :=
  Ideal.div (weight σ t) (∑ t' : Fin 2048, weight σ t')

/-- Entry `e` of the attended value row: the weights' combination of the value rows. -/
def context (q : Fin 1024 → EReal) (K V : Fin 2048 → Fin 1024 → EReal) (e : Fin 1024) : EReal :=
  ∑ t : Fin 2048, prob (score q K) t * V t e

/-- Entry `f` of the output row: the attended row through the output projection. -/
def attendRow (q : Fin 1024 → EReal) (K V : Fin 2048 → Fin 1024 → EReal) (Wo : Fin 1024 → Fin 1024 → EReal)
    (bo : Fin 1024 → EReal) (f : Fin 1024) : EReal :=
  affineRow (context q K V) Wo bo f

/-- The whole result array as one function of the nine argument arrays, index by index. -/
def G (x : (⟨3, ![4, 2048, 1024]⟩ : Shape).Idx → EReal)
    (wq : (⟨2, ![1024, 1024]⟩ : Shape).Idx → EReal) (bq : (⟨1, ![1024]⟩ : Shape).Idx → EReal)
    (wk : (⟨2, ![1024, 1024]⟩ : Shape).Idx → EReal) (bk : (⟨1, ![1024]⟩ : Shape).Idx → EReal)
    (wv : (⟨2, ![1024, 1024]⟩ : Shape).Idx → EReal) (bv : (⟨1, ![1024]⟩ : Shape).Idx → EReal)
    (wo : (⟨2, ![1024, 1024]⟩ : Shape).Idx → EReal) (bo : (⟨1, ![1024]⟩ : Shape).Idx → EReal) :
    (⟨3, ![4, 2048, 1024]⟩ : Shape).Idx → EReal := fun i =>
  attendRow
    (affineRow (fun d => x (ix3 (i 0) (i 1) d)) (fun d f => wq (ix2 d f)) (fun f => bq (ix1 f)))
    (fun t => affineRow (fun d => x (ix3 (i 0) t d)) (fun d f => wk (ix2 d f)) (fun f => bk (ix1 f)))
    (fun t => affineRow (fun d => x (ix3 (i 0) t d)) (fun d f => wv (ix2 d f)) (fun f => bv (ix1 f)))
    (fun d f => wo (ix2 d f)) (fun f => bo (ix1 f)) (i 2)

/-! ## The two laws -/

/-- The binary32 word 0x42800000 is 64. -/
theorem ofBits_64 : Ideal.ofBits .f32 0x42800000#32 = ((64 : ℝ) : EReal) := by
  simp [Ideal.ofBits, Ideal.ieee, -EReal.coe_mul]; norm_num

/-- The binary32 word 0x3E000000 is 1/8. -/
theorem eighth_eq : eighth = ((1 / 8 : ℝ) : EReal) := by
  simp [eighth, Ideal.ofBits, Ideal.ieee, -EReal.coe_mul]; norm_num

/-- √64 = 8. -/
theorem sqrt_64 : Ideal.sqrt ((64 : ℝ) : EReal) = ((8 : ℝ) : EReal) := by
  rw [Ideal.sqrt_coe, if_neg (by norm_num)]
  have h : Real.sqrt 64 = 8 := by
    rw [show (64 : ℝ) = 8 * 8 by norm_num]
    exact Real.sqrt_mul_self (by norm_num)
  rw [h]

/-- Dividing by √64 is multiplying by 1/8, for every extended real (infinite ones included). -/
theorem div_sqrt_64 (a : EReal) :
    Ideal.div a (Ideal.sqrt (Ideal.ofBits .f32 0x42800000#32)) = a * eighth := by
  rw [ofBits_64, sqrt_64, Ideal.div_coe (by norm_num : (8 : ℝ) ≠ 0), eighth_eq]

/-- A fold of `max` is at least the value it started from, so taking the maximum with that value again is the
    fold itself. -/
theorem max_floor_rowMax (σ : Fin 2048 → EReal) : max floor (rowMax σ) = rowMax σ :=
  max_eq_right (by unfold rowMax; rw [Finset.le_fold_max]; exact Or.inl le_rfl)

end Cert.Attention

end
-- ==== Proof.KernelRun.lean ====
/-
  The idealized kernel's run with its result kept.

  The program is four stretches in a row: host operations (a reshape of the input and the casts of the weights),
  the projection region, three reshapes, the attention region. Its run is the library's launch over those four
  segments; every unscoped buffer ends at the contents the last boundary names (`W4`), so the result buffer ends at
  `W4` read at it, beside the nine arguments ending as launched.
-/
import proofs.«103212_j63763084476445_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates without a fault; the result buffer ends at the last boundary's contents
    read at it, and each argument ends as launched. -/
theorem run_out : θ_run defs (onTc (τ := τ) (main (F := F))) ⟨m, fun _ => 0, ρ⟩ (fun r => ∀ c : Dev nD,
      r.2.mem ((c.tc : Thread nD τ).loc main_v14) = W4 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v14 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Run

end
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.Region0.lean ====
/-
  What the fused projection region leaves in its three output arrays.

  The region runs over 8 blocks of 1024 consecutive rows of the 8192 × 1024 input. At block `t` it multiplies the
  block's rows by each of the three 1024 × 1024 weight matrices (a product accumulated from zero), adds the
  matching bias row to every row, and stores the three results as block `t` of the query, key and value arrays.
  Read at an entry (r, f), each stored value is

      (∑_d x(r, d) · W(d, f)) + b(f),

  entry `f` of the affine image of input row `r` (`Cert.Attention.affineRow`): a row of a product depends on that
  row of the left factor only, so the blocks are restrictions of one whole-array function, and the 8 blocks cover
  all 8192 rows (row `r` lies in block r / 1024). No sum is reordered and no factor moved, so nothing needs the
  entries finite. The arrays the region finds on entry are a parameter `V` throughout.
-/
import proofs.«103212_j63763084476445_2_alg».proof.Proof.Gen.KernelIdeal.Frame
import proofs.«103212_j63763084476445_2_alg».proof.Proof.Spec
import proofs.«103212_j63763084476445_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

/-! ## A stored block at an entry -/

/-- A product of two 1024 × 1024 matrices accumulated from zero, read at row `p` and column `q`: the sum over the
    contracted coordinate `d` of the left factor at (p, d) times the right factor at (d, q). -/
theorem plain_dot (A B : FVec Ideal S1024x1024 .bf16) (p q : Fin 1024) :
    matmul dot_S1024x1024_S1024x1024_S1024x1024_1_0_0_1_n_n none A B (constant S1024x1024 .f32 0x00000000#32) (ix2 p q)
      = ∑ d : Fin 1024, A (ix2 p d) * B (ix2 d q) :=
  Cert.LibPlainDot.matmul_zero_apply dot_S1024x1024_S1024x1024_S1024x1024_1_0_0_1_n_n_wf none A B p q

/-- A bias row broadcast down the 1024 rows reads, at (p, q), the row's entry `q`. -/
theorem bias_apply (b : Vec Ideal S1x1024 .f32) (p q : Fin 1024) :
    broadcastTo S1024x1024 b broadcasts_S1x1024_S1024x1024 (ix2 p q) = b (ix2 0 q) :=
  broadcastTo_apply b broadcasts_S1x1024_S1024x1024 (ix2 p q) (ix2 0 q) (fun a => by
    match a with
    | ⟨0, _⟩ => rfl
    | ⟨1, _⟩ => rfl)

/-- The stored block of a projection at row `p`, column `q`: entry `q` of the affine image of row `p` of the
    block of input rows. -/
theorem proj_apply (x0 w : Vec Ideal S1024x1024 .bf16) (b : Vec Ideal S1x1024 .f32) (p q : Fin 1024) :
    k0_pay2 x0 w b (ix2 p q) = Cert.Attention.affineRow (fun d => x0 (ix2 p d)) (fun d f => w (ix2 d f)) (fun f => b (ix2 0 f)) q := by
  unfold k0_pay2 k0_pay1
  rw [truncf_apply, addf_apply]
  simp only [shapeCast_self]
  exact congrArg₂ (· + ·) (plain_dot x0 w p q) (bias_apply b p q)

/-! ## Where the windows' blocks sit -/

theorem hz : (![0, 0] : Fin 2 → Nat) = fun _ => 0 := funext fun a => by fin_cases a <;> rfl

/-- The printed index maps, decided once over the grid of 8 points: at point `t` the input rows' window and the three
    output windows are at block (t, 0), and each weight and bias window at block (0, 0). -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- The array a projection leaves: row `i 0` of the 8192 input rows through the affine map, entry `i 1`. -/
abbrev rowsAffine (X : S8192x1024.Idx → EReal) (W : S1024x1024.Idx → EReal) (B : S1x1024.Idx → EReal) : S8192x1024.Idx → EReal :=
  fun i => Cert.Attention.affineRow (fun d => X (ix2 (i 0) d)) (fun d f => W (ix2 d f)) (fun f => B (ix2 0 f)) (i 1)

/-- One stored block against the whole array: if the block `x0` of input rows is rows n·1024 … n·1024 + 1023 of `X`,
    and the weight and bias blocks are the whole arrays `W` and `B`, then the block's entry `j` is the array's entry at
    row n·1024 + j 0, column j 1. -/
theorem block_apply (x0 w : Vec Ideal S1024x1024 .bf16) (b : Vec Ideal S1x1024 .f32)
    (X : S8192x1024.Idx → EReal) (W : S1024x1024.Idx → EReal) (B : S1x1024.Idx → EReal) (n : Nat)
    (hx : ∀ (p d : Fin 1024) (r : Fin 8192), r.val = n * 1024 + p.val → x0 (ix2 p d) = X (ix2 r d))
    (hw : ∀ d f : Fin 1024, w (ix2 d f) = W (ix2 d f)) (hb : ∀ f : Fin 1024, b (ix2 0 f) = B (ix2 0 f))
    (j : S1024x1024.Idx) (i : S8192x1024.Idx) (h0 : (i 0).val = n * 1024 + (j 0).val) (h1 : (i 1).val = (j 1).val) :
    k0_pay2 x0 w b j = rowsAffine X W B i := by
  obtain ⟨p, q, rfl⟩ : ∃ (p q : Fin 1024), j = ix2 p q := ⟨j 0, j 1, eq_ix2 j⟩
  rw [proj_apply]
  have hq : (i 1 : Fin 1024) = q := Fin.ext h1
  have e1 : (fun d => x0 (ix2 p d)) = fun d => X (ix2 (i 0) d) := funext fun d => hx p d (i 0) h0
  have e2 : (fun d f => w (ix2 d f)) = fun d f => W (ix2 d f) := funext fun d => funext fun f => hw d f
  have e3 : (fun f => b (ix2 0 f)) = fun f => B (ix2 0 f) := funext hb
  rw [e1, e2, e3]
  exact congrArg _ hq.symm

variable (V : (c : Dev nD) → (b : Ref sig .tc) → Buf (Elt Ideal) ((c : Thread nD τ).loc b))

/-- The input rows' block at point `t` is rows t·1024 … t·1024 + 1023 of the array. -/
theorem rows_apply (c : Dev nD) (t : Fin cfg0.N) (p d : Fin 1024) (r : Fin 8192) (hr : r.val = t.val * 1024 + p.val) :
    (iblk0 V c 0 t : Vec Ideal S1024x1024 .bf16) (ix2 p d) = (V c main_v1 : S8192x1024.Idx → EReal) (ix2 r d) := by
  obtain ⟨⟨e0, e1⟩, -⟩ := idx_facts t
  unfold iblk0
  rw [View.read_apply]
  show V c main_v1 _ = V c main_v1 _
  congr 1
  funext a
  apply Fin.ext
  match a with
  | ⟨0, _⟩ => show win0_0.index t 0 * 1024 + 1 * p.val = r.val; rw [e0, hr]; omega
  | ⟨1, _⟩ => show win0_0.index t 1 * 1024 + 1 * d.val = d.val; rw [e1]; omega

/-! ## The query projection (output window 7) -/

/-- Its weight window's block at every point is the whole weight array. -/
theorem weight7_apply (c : Dev nD) (t : Fin cfg0.N) (d f : Fin 1024) :
    (iblk0 V c 1 t : Vec Ideal S1024x1024 .bf16) (ix2 d f) = (V c main_v2 : S1024x1024.Idx → EReal) (ix2 d f) := by
  obtain ⟨-, ⟨e0, e1⟩, -⟩ := idx_facts t
  unfold iblk0
  rw [View.read_apply]
  show V c main_v2 _ = V c main_v2 _
  congr 1
  funext a
  apply Fin.ext
  match a with
  | ⟨0, _⟩ => show win0_1.index t 0 * 1024 + 1 * d.val = d.val; rw [e0]; omega
  | ⟨1, _⟩ => show win0_1.index t 1 * 1024 + 1 * f.val = f.val; rw [e1]; omega

/-- Its bias window's block at every point is the whole bias row. -/
theorem bias7_apply (c : Dev nD) (t : Fin cfg0.N) (f : Fin 1024) :
    (iblk0 V c 2 t : Vec Ideal S1x1024 .f32) (ix2 0 f) = (V c main_v6 : S1x1024.Idx → EReal) (ix2 0 f) := by
  obtain ⟨-, -, ⟨e0, e1⟩, -⟩ := idx_facts t
  unfold iblk0
  rw [View.read_apply]
  show V c main_v6 _ = V c main_v6 _
  congr 1
  funext a
  apply Fin.ext
  match a with
  | ⟨0, _⟩ => show win0_2.index t 0 * 1 + 1 * 0 = 0; rw [e0]
  | ⟨1, _⟩ => show win0_2.index t 1 * 1024 + 1 * f.val = f.val; rw [e1]; omega

/-- What point `t` writes back is block `t` of the query projection of the arrays the region found. -/
theorem flushed7_eq (c : Dev nD) (t : Fin cfg0.N) :
    (dat0 V c).flushed 7 t = ((cfg0.win 7).blk t).view.read (Elt Ideal) (rowsAffine (V c main_v1) (V c main_v2) (V c main_v6)) := by
  show (cfg0.win 7).cut (grid0.coords t) ((dat0 V c).after 7 t) = _
  rw [after0_7]
  unfold out0_7
  rw [View.canon_unit_zero hz]
  simp only [View.ld_unit_zero (S := S1024x1024) hz, View.ld_unit_zero (S := S1x1024) hz]
  obtain ⟨-, -, -, -, -, -, -, ⟨o0, o1⟩, -⟩ := idx_facts t
  funext j
  show k0_pay2 (iblk0 V c 0 t) (iblk0 V c 1 t) (iblk0 V c 2 t) j = rowsAffine (V c main_v1) (V c main_v2) (V c main_v6) (((cfg0.win 7).blk t).view.emb j)
  refine block_apply (iblk0 V c 0 t) (iblk0 V c 1 t) (iblk0 V c 2 t) (V c main_v1) (V c main_v2) (V c main_v6) t.val
    (fun p d r hr => rows_apply V c t p d r hr) (weight7_apply V c t) (bias7_apply V c t) j _ ?_ ?_
  · show win0_7.index t 0 * 1024 + 1 * (j 0).val = t.val * 1024 + (j 0).val; rw [o0]; omega
  · show win0_7.index t 1 * 1024 + 1 * (j 1).val = (j 1).val; rw [o1]; omega

/-- An index of the array is in point `t`'s block iff each coordinate is in the block's range on its axis. -/
theorem mem_blk7 (t : Fin cfg0.N) (i : S8192x1024.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v10_0).slice (win0_7.rect t)).set ↔ _
  rw [View.set_slice_whole, Rect.mem_set_unit]
  exact Iff.rfl

/-- Row `r` of the 8192 lies in the block of point r / 1024: the 8 blocks of 1024 rows cover the array. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht⟩ : ∃ t : Fin cfg0.N, t.val = (i 0).val / 1024 := ⟨⟨(i 0).val / 1024, by show _ < grid0.N; rw [N_0]; omega⟩, rfl⟩
  refine ⟨t, flush0_7 t, ?_⟩
  rw [mem_blk7]
  obtain ⟨-, -, -, -, -, -, -, ⟨o0, o1⟩, -⟩ := idx_facts t
  intro a
  match a with
  | ⟨0, _⟩ => show win0_7.index t 0 * 1024 ≤ (i 0).val ∧ (i 0).val < win0_7.index t 0 * 1024 + 1024; rw [o0, ht]; omega
  | ⟨1, _⟩ => show win0_7.index t 1 * 1024 ≤ (i 1).val ∧ (i 1).val < win0_7.index t 1 * 1024 + 1024; rw [o1]; omega

/-- The query array after the region: every row of the input through the query map. -/
theorem arr7 (c : Dev nD) : (dat0 (F := Ideal) V c).arrAt 7 cfg0.N = fun i : S8192x1024.Idx =>
    Cert.Attention.affineRow (fun d => (V c main_v1 : S8192x1024.Idx → EReal) (ix2 (i 0) d)) (fun d f => (V c main_v2 : S1024x1024.Idx → EReal) (ix2 d f)) (fun f => (V c main_v6 : S1x1024.Idx → EReal) (ix2 0 f)) (i 1) :=
  (dat0 V c).arrAt_eq_of_cover 7 (rowsAffine (V c main_v1) (V c main_v2) (V c main_v6)) (fun t _ => flushed7_eq V c t) cover7

/-! ## The key projection (output window 8) -/

/-- Its weight window's block at every point is the whole weight array. -/
theorem weight8_apply (c : Dev nD) (t : Fin cfg0.N) (d f : Fin 1024) :
    (iblk0 V c 3 t : Vec Ideal S1024x1024 .bf16) (ix2 d f) = (V c main_v3 : S1024x1024.Idx → EReal) (ix2 d f) := by
  obtain ⟨-, -, -, ⟨e0, e1⟩, -⟩ := idx_facts t
  unfold iblk0
  rw [View.read_apply]
  show V c main_v3 _ = V c main_v3 _
  congr 1
  funext a
  apply Fin.ext
  match a with
  | ⟨0, _⟩ => show win0_3.index t 0 * 1024 + 1 * d.val = d.val; rw [e0]; omega
  | ⟨1, _⟩ => show win0_3.index t 1 * 1024 + 1 * f.val = f.val; rw [e1]; omega

/-- Its bias window's block at every point is the whole bias row. -/
theorem bias8_apply (c : Dev nD) (t : Fin cfg0.N) (f : Fin 1024) :
    (iblk0 V c 4 t : Vec Ideal S1x1024 .f32) (ix2 0 f) = (V c main_v7 : S1x1024.Idx → EReal) (ix2 0 f) := by
  obtain ⟨-, -, -, -, ⟨e0, e1⟩, -⟩ := idx_facts t
  unfold iblk0
  rw [View.read_apply]
  show V c main_v7 _ = V c main_v7 _
  congr 1
  funext a
  apply Fin.ext
  match a with
  | ⟨0, _⟩ => show win0_4.index t 0 * 1 + 1 * 0 = 0; rw [e0]
  | ⟨1, _⟩ => show win0_4.index t 1 * 1024 + 1 * f.val = f.val; rw [e1]; omega

/-- What point `t` writes back is block `t` of the key projection of the arrays the region found. -/
theorem flushed8_eq (c : Dev nD) (t : Fin cfg0.N) :
    (dat0 V c).flushed 8 t = ((cfg0.win 8).blk t).view.read (Elt Ideal) (rowsAffine (V c main_v1) (V c main_v3) (V c main_v7)) := by
  show (cfg0.win 8).cut (grid0.coords t) ((dat0 V c).after 8 t) = _
  rw [after0_8]
  unfold out0_8
  rw [View.canon_unit_zero hz]
  simp only [View.ld_unit_zero (S := S1024x1024) hz, View.ld_unit_zero (S := S1x1024) hz]
  obtain ⟨-, -, -, -, -, -, -, -, ⟨o0, o1⟩, -⟩ := idx_facts t
  funext j
  show k0_pay2 (iblk0 V c 0 t) (iblk0 V c 3 t) (iblk0 V c 4 t) j = rowsAffine (V c main_v1) (V c main_v3) (V c main_v7) (((cfg0.win 8).blk t).view.emb j)
  refine block_apply (iblk0 V c 0 t) (iblk0 V c 3 t) (iblk0 V c 4 t) (V c main_v1) (V c main_v3) (V c main_v7) t.val
    (fun p d r hr => rows_apply V c t p d r hr) (weight8_apply V c t) (bias8_apply V c t) j _ ?_ ?_
  · show win0_8.index t 0 * 1024 + 1 * (j 0).val = t.val * 1024 + (j 0).val; rw [o0]; omega
  · show win0_8.index t 1 * 1024 + 1 * (j 1).val = (j 1).val; rw [o1]; omega

/-- An index of the array is in point `t`'s block iff each coordinate is in the block's range on its axis. -/
theorem mem_blk8 (t : Fin cfg0.N) (i : S8192x1024.Idx) :
    i ∈ ((cfg0.win 8).blk t).view.set ↔ ∀ a : Fin 2, win0_8.index t a * S1024x1024.size a ≤ (i a).val ∧ (i a).val < win0_8.index t a * S1024x1024.size a + S1024x1024.size a := by
  show i ∈ ((View.whole main_v10_1).slice (win0_8.rect t)).set ↔ _
  rw [View.set_slice_whole, Rect.mem_set_unit]
  exact Iff.rfl

/-- Row `r` of the 8192 lies in the block of point r / 1024: the 8 blocks of 1024 rows cover the array. -/
theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  obtain ⟨t, ht⟩ : ∃ t : Fin cfg0.N, t.val = (i 0).val / 1024 := ⟨⟨(i 0).val / 1024, by show _ < grid0.N; rw [N_0]; omega⟩, rfl⟩
  refine ⟨t, flush0_8 t, ?_⟩
  rw [mem_blk8]
  obtain ⟨-, -, -, -, -, -, -, -, ⟨o0, o1⟩, -⟩ := idx_facts t
  intro a
  match a with
  | ⟨0, _⟩ => show win0_8.index t 0 * 1024 ≤ (i 0).val ∧ (i 0).val < win0_8.index t 0 * 1024 + 1024; rw [o0, ht]; omega
  | ⟨1, _⟩ => show win0_8.index t 1 * 1024 ≤ (i 1).val ∧ (i 1).val < win0_8.index t 1 * 1024 + 1024; rw [o1]; omega

/-- The key array after the region: every row of the input through the key map. -/
theorem arr8 (c : Dev nD) : (dat0 (F := Ideal) V c).arrAt 8 cfg0.N = fun i : S8192x1024.Idx =>
    Cert.Attention.affineRow (fun d => (V c main_v1 : S8192x1024.Idx → EReal) (ix2 (i 0) d)) (fun d f => (V c main_v3 : S1024x1024.Idx → EReal) (ix2 d f)) (fun f => (V c main_v7 : S1x1024.Idx → EReal) (ix2 0 f)) (i 1) :=
  (dat0 V c).arrAt_eq_of_cover 8 (rowsAffine (V c main_v1) (V c main_v3) (V c main_v7)) (fun t _ => flushed8_eq V c t) cover8

/-! ## The value projection (output window 9) -/

/-- Its weight window's block at every point is the whole weight array. -/
theorem weight9_apply (c : Dev nD) (t : Fin cfg0.N) (d f : Fin 1024) :
    (iblk0 V c 5 t : Vec Ideal S1024x1024 .bf16) (ix2 d f) = (V c main_v4 : S1024x1024.Idx → EReal) (ix2 d f) := by
  obtain ⟨-, -, -, -, -, ⟨e0, e1⟩, -⟩ := idx_facts t
  unfold iblk0
  rw [View.read_apply]
  show V c main_v4 _ = V c main_v4 _
  congr 1
  funext a
  apply Fin.ext
  match a with
  | ⟨0, _⟩ => show win0_5.index t 0 * 1024 + 1 * d.val = d.val; rw [e0]; omega
  | ⟨1, _⟩ => show win0_5.index t 1 * 1024 + 1 * f.val = f.val; rw [e1]; omega

/-- Its bias window's block at every point is the whole bias row. -/
theorem bias9_apply (c : Dev nD) (t : Fin cfg0.N) (f : Fin 1024) :
    (iblk0 V c 6 t : Vec Ideal S1x1024 .f32) (ix2 0 f) = (V c main_v8 : S1x1024.Idx → EReal) (ix2 0 f) := by
  obtain ⟨-, -, -, -, -, -, ⟨e0, e1⟩, -⟩ := idx_facts t
  unfold iblk0
  rw [View.read_apply]
  show V c main_v8 _ = V c main_v8 _
  congr 1
  funext a
  apply Fin.ext
  match a with
  | ⟨0, _⟩ => show win0_6.index t 0 * 1 + 1 * 0 = 0; rw [e0]
  | ⟨1, _⟩ => show win0_6.index t 1 * 1024 + 1 * f.val = f.val; rw [e1]; omega

/-- What point `t` writes back is block `t` of the value projection of the arrays the region found. -/
theorem flushed9_eq (c : Dev nD) (t : Fin cfg0.N) :
    (dat0 V c).flushed 9 t = ((cfg0.win 9).blk t).view.read (Elt Ideal) (rowsAffine (V c main_v1) (V c main_v4) (V c main_v8)) := by
  show (cfg0.win 9).cut (grid0.coords t) ((dat0 V c).after 9 t) = _
  rw [after0_9]
  unfold out0_9
  rw [View.canon_unit_zero hz]
  simp only [View.ld_unit_zero (S := S1024x1024) hz, View.ld_unit_zero (S := S1x1024) hz]
  obtain ⟨-, -, -, -, -, -, -, -, -, ⟨o0, o1⟩⟩ := idx_facts t
  funext j
  show k0_pay2 (iblk0 V c 0 t) (iblk0 V c 5 t) (iblk0 V c 6 t) j = rowsAffine (V c main_v1) (V c main_v4) (V c main_v8) (((cfg0.win 9).blk t).view.emb j)
  refine block_apply (iblk0 V c 0 t) (iblk0 V c 5 t) (iblk0 V c 6 t) (V c main_v1) (V c main_v4) (V c main_v8) t.val
    (fun p d r hr => rows_apply V c t p d r hr) (weight9_apply V c t) (bias9_apply V c t) j _ ?_ ?_
  · show win0_9.index t 0 * 1024 + 1 * (j 0).val = t.val * 1024 + (j 0).val; rw [o0]; omega
  · show win0_9.index t 1 * 1024 + 1 * (j 1).val = (j 1).val; rw [o1]; omega

/-- An index of the array is in point `t`'s block iff each coordinate is in the block's range on its axis. -/
theorem mem_blk9 (t : Fin cfg0.N) (i : S8192x1024.Idx) :
    i ∈ ((cfg0.win 9).blk t).view.set ↔ ∀ a : Fin 2, win0_9.index t a * S1024x1024.size a ≤ (i a).val ∧ (i a).val < win0_9.index t a * S1024x1024.size a + S1024x1024.size a := by
  show i ∈ ((View.whole main_v10_2).slice (win0_9.rect t)).set ↔ _
  rw [View.set_slice_whole, Rect.mem_set_unit]
  exact Iff.rfl

/-- Row `r` of the 8192 lies in the block of point r / 1024: the 8 blocks of 1024 rows cover the array. -/
theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  obtain ⟨t, ht⟩ : ∃ t : Fin cfg0.N, t.val = (i 0).val / 1024 := ⟨⟨(i 0).val / 1024, by show _ < grid0.N; rw [N_0]; omega⟩, rfl⟩
  refine ⟨t, flush0_9 t, ?_⟩
  rw [mem_blk9]
  obtain ⟨-, -, -, -, -, -, -, -, -, ⟨o0, o1⟩⟩ := idx_facts t
  intro a
  match a with
  | ⟨0, _⟩ => show win0_9.index t 0 * 1024 ≤ (i 0).val ∧ (i 0).val < win0_9.index t 0 * 1024 + 1024; rw [o0, ht]; omega
  | ⟨1, _⟩ => show win0_9.index t 1 * 1024 ≤ (i 1).val ∧ (i 1).val < win0_9.index t 1 * 1024 + 1024; rw [o1]; omega

/-- The value array after the region: every row of the input through the value map. -/
theorem arr9 (c : Dev nD) : (dat0 (F := Ideal) V c).arrAt 9 cfg0.N = fun i : S8192x1024.Idx =>
    Cert.Attention.affineRow (fun d => (V c main_v1 : S8192x1024.Idx → EReal) (ix2 (i 0) d)) (fun d f => (V c main_v4 : S1024x1024.Idx → EReal) (ix2 d f)) (fun f => (V c main_v8 : S1x1024.Idx → EReal) (ix2 0 f)) (i 1) :=
  (dat0 V c).arrAt_eq_of_cover 9 (rowsAffine (V c main_v1) (V c main_v4) (V c main_v8)) (fun t _ => flushed9_eq V c t) cover9

end Cert.KernelIdeal.Region0

end
-- ==== Proof.LibKeepdimsLayout.lean ====
/-
  Layout operations read at an index, by coordinates: a vector made a column ([a] → [a,1]), a column broadcast along
  its rows ([a,1] → [a,b]), and a matrix with two unit axes around its rows ([1,a,1,b] ↔ [a,b]).
-/
import Idealize.ShloMosaic.Lib.ValueIdx
import Idealize.ShloMosaic.Lib.Pipeline.Value
import Idealize.ShloMosaic.Lib.ValueLayout

namespace Cert.KernelIdeal.Val

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, c)`, the operand's one column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A `[1, a, 1, b]` array cast to `[a, b]` reads, at `(i, j)`, the operand at `(0, i, 0, j)`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    rw [Nat.zero_mul, Nat.zero_add, Nat.mul_one, Nat.add_zero])

/-- An `[a, b]` array cast to `[1, a, 1, b]` reads, at `(u, i, w, j)`, the operand at `(i, j)`, whatever the unit
    coordinates. -/
theorem shapeCast_ab_1a1b_apply {a b : ℕ} (x : (⟨2, ![a, b]⟩ : Shape).Idx → α)
    (h : (⟨2, ![a, b]⟩ : Shape).ShapeCasts ⟨4, ![1, a, 1, b]⟩) (u : Fin 1) (i : Fin a) (w : Fin 1) (j : Fin b) :
    shapeCast ⟨4, ![1, a, 1, b]⟩ x h (ix4 u i w j) = x (ix2 i j) :=
  shapeCast_apply x h _ _ (by
    have hu : u.val = 0 := by omega
    have hw : w.val = 0 := by omega
    rw [Shape.rowMajor_val_four, Shape.rowMajor_val_two]
    show i.val * b + j.val = ((u.val * a + i.val) * 1 + w.val) * b + j.val
    rw [hu, hw, Nat.zero_mul, Nat.zero_add, Nat.mul_one, Nat.add_zero])

end Cert.KernelIdeal.Val
-- ==== Proof.AttnBody.lean ====
/-
  The attention region's body, read at an entry.

  The body takes a block of 256 query rows, the 2048 key rows and the 2048 value rows of one batch entry, the output
  projection's weights and its bias row, and stores a block of 256 result rows. Its arithmetic is cut here into
  the stages the mathematics names — the scaled scores q·kᵀ·(1/8), a row's maximum, the weights exp(σ − max σ), a
  row's sum of weights, the normalised weights, the attended rows p·v, and the output projection ctx·Wo + bo — each
  stage a definition over whole vectors (together they ARE the body's one stored value, by unfolding), each read at
  an entry as the corresponding row-wise definition of the specification. A change of float format is the identity
  on the extended reals, so the three roundings to the narrow format inside the body do not appear.
-/
import proofs.«103212_j63763084476445_2_alg».proof.Proof.Gen.KernelIdeal.Skeleton
import proofs.«103212_j63763084476445_2_alg».proof.Proof.Spec
import proofs.«103212_j63763084476445_2_alg».proof.Proof.LibKeepdimsLayout
import proofs.«103212_j63763084476445_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AttnBody

open Cert.KernelIdeal Cert.KernelIdeal.Gen Idealize.ShloMosaic Idealize.ShloMosaic.ValueIdx Cert.Attention

/-! ## The stages -/

/-- The scaled scores of the block's 256 query rows against the 2048 key rows. -/
def scoresV (q : Vec Ideal S1x256x1024 .bf16) (k : Vec Ideal S1x2048x1024 .bf16) : FVec Ideal S256x2048 .f32 :=
  mulf (matmul dot_S256x1024_S2048x1024_S256x2048_1_1_0_0_n_n none (shapeCast S256x1024 q shapeCasts_S1x256x1024_S256x1024 : FVec Ideal S256x1024 .bf16)
      (shapeCast S2048x1024 k shapeCasts_S1x2048x1024_S2048x1024 : FVec Ideal S2048x1024 .bf16) (constant S256x2048 .f32 0x00000000#32))
    (broadcast S256x2048 (Scalar.ofBits .f32 0x3E000000#32))

/-- Each row's largest score. -/
def rowMaxV (σ : FVec Ideal S256x2048 .f32) : FVec Ideal S256 .f32 :=
  multiReduction .maximumf [1] S256 σ 0xFF800000#32 reduces_S256x2048_S256 (.inl rfl) rfl

/-- The weights: the exponential of each score below its row's maximum. -/
def weightsV (σ : FVec Ideal S256x2048 .f32) : FVec Ideal S256x2048 .f32 :=
  exp (subf σ (broadcastTo S256x2048 (shapeCast S256x1 (rowMaxV σ) shapeCasts_S256_S256x1 : FVec Ideal S256x1 .f32) broadcasts_S256x1_S256x2048))

/-- Each row's sum of weights. -/
def rowSumV (w : FVec Ideal S256x2048 .f32) : FVec Ideal S256 .f32 :=
  multiReduction .add [1] S256 w 0x00000000#32 reduces_S256x2048_S256 (.inl rfl) rfl

/-- The weights divided by their row's sum. -/
def probsV (w : FVec Ideal S256x2048 .f32) : FVec Ideal S256x2048 .bf16 :=
  truncf .bf16 (divf w (broadcastTo S256x2048 (shapeCast S256x1 (rowSumV w) shapeCasts_S256_S256x1 : FVec Ideal S256x1 .f32) broadcasts_S256x1_S256x2048)) bitsLt_bf16_f32

/-- The attended rows: the normalised weights times the value rows. -/
def ctxV (p : FVec Ideal S256x2048 .bf16) (v : Vec Ideal S1x2048x1024 .bf16) : FVec Ideal S256x1024 .bf16 :=
  truncf .bf16 (matmul dot_S256x2048_S2048x1024_S256x1024_1_0_0_1_n_n none p (shapeCast S2048x1024 v shapeCasts_S1x2048x1024_S2048x1024 : FVec Ideal S2048x1024 .bf16)
    (constant S256x1024 .f32 0x00000000#32)) bitsLt_bf16_f32

/-- The output projection of the attended rows, plus the bias row, as a block with a leading unit axis. -/
def outV (c : FVec Ideal S256x1024 .bf16) (wo : Vec Ideal S1024x1024 .bf16) (bo : Vec Ideal S1x1024 .f32) : FVec Ideal S1x256x1024 .f32 :=
  shapeCast S1x256x1024 (addf (matmul dot_S256x1024_S1024x1024_S256x1024_1_0_0_1_n_n none c (shapeCast S1024x1024 wo shapeCasts_S1024x1024_S1024x1024 : FVec Ideal S1024x1024 .bf16)
      (constant S256x1024 .f32 0x00000000#32))
    (broadcastTo S256x1024 (shapeCast S1x1024 bo shapeCasts_S1x1024_S1x1024 : FVec Ideal S1x1024 .f32) broadcasts_S1x1024_S256x1024)) shapeCasts_S256x1024_S1x256x1024

/-- The body's one stored value is the stages composed. -/
theorem pay_eq (q : Vec Ideal S1x256x1024 .bf16) (k v : Vec Ideal S1x2048x1024 .bf16) (wo : Vec Ideal S1024x1024 .bf16)
    (bo : Vec Ideal S1x1024 .f32) :
    k1_pay1 (F := Ideal) q k v wo bo = outV (ctxV (probsV (weightsV (scoresV q k))) v) wo bo := rfl

/-! ## The query–key product: both operands contracted along their last axis -/

/-- The product's dimension numbers: each operand's axis 1 contracted, no batch axis. -/
abbrev Dqk : DotDims S256x1024 S2048x1024 S256x2048 := dot_S256x1024_S2048x1024_S256x2048_1_1_0_0_n_n

theorem qk_lhs_row (r : Fin 256) (t : Fin 2048) (c : Dqk.contr.Idx) : (Dqk.lhsIdx (ix2 r t) c 0).val = r.val := by
  unfold DotDims.lhsIdx
  rw [dif_neg (show ¬(0 : Fin S256x1024.rank) ∈ Dqk.lhsBatch by decide), dif_pos (show (0 : Fin S256x1024.rank) ∈ Dqk.lhsNonContracting by decide)]
  rfl

theorem qk_lhs_col (r : Fin 256) (t : Fin 2048) (c : Dqk.contr.Idx) : (Dqk.lhsIdx (ix2 r t) c 1).val = (c ⟨0, by decide⟩).val :=
  Dqk.lhsIdx_val_of_single rfl (ix2 r t) c

theorem qk_rhs_row (r : Fin 256) (t : Fin 2048) (c : Dqk.contr.Idx) : (Dqk.rhsIdx (ix2 r t) c 0).val = t.val := by
  unfold DotDims.rhsIdx
  rw [dif_neg (show ¬(0 : Fin S2048x1024.rank) ∈ Dqk.rhsBatch by decide), dif_pos (show (0 : Fin S2048x1024.rank) ∈ Dqk.rhsNonContracting by decide)]
  rfl

theorem qk_rhs_col (r : Fin 256) (t : Fin 2048) (c : Dqk.contr.Idx) : (Dqk.rhsIdx (ix2 r t) c 1).val = (c ⟨0, by decide⟩).val :=
  Dqk.rhsIdx_val_of_single rfl (ix2 r t) c

/-- Entry (r, t) of A·Bᵀ into a zero accumulator: the sum over the shared last axis of A(r, d)·B(t, d). -/
theorem qk_apply (A : FVec Ideal S256x1024 .bf16) (B : FVec Ideal S2048x1024 .bf16) (r : Fin 256) (t : Fin 2048) :
    FloatOps.matmul (F := Ideal) Dqk none A B (constant S256x2048 .f32 0x00000000#32) (ix2 r t) = ∑ d : Fin 1024, A (ix2 r d) * B (ix2 t d) := by
  rw [Ideal.matmul_constant_zero_apply, ← Equiv.sum_comp (contrEquiv1 Dqk 1024 rfl rfl).symm]
  refine Finset.sum_congr rfl fun d _ => ?_
  have hd := contrEquiv1_symm_val Dqk 1024 rfl rfl d
  have el : Dqk.lhsIdx (ix2 r t) ((contrEquiv1 Dqk 1024 rfl rfl).symm d) = ix2 r d := funext fun a => Fin.ext (by
    match a with
    | ⟨0, _⟩ => exact qk_lhs_row r t _
    | ⟨1, _⟩ => exact (qk_lhs_col r t _).trans hd)
  have er : Dqk.rhsIdx (ix2 r t) ((contrEquiv1 Dqk 1024 rfl rfl).symm d) = ix2 t d := funext fun a => Fin.ext (by
    match a with
    | ⟨0, _⟩ => exact qk_rhs_row r t _
    | ⟨1, _⟩ => exact (qk_rhs_col r t _).trans hd)
  rw [el, er]

/-! ## Each stage at an entry -/

/-- A scaled score: the query row against key row `t`, times 1/8. -/
theorem scoresV_apply (q : Vec Ideal S1x256x1024 .bf16) (k : Vec Ideal S1x2048x1024 .bf16) (r : Fin 256) (t : Fin 2048) :
    scoresV q k (ix2 r t) = score (fun d => q (ix3 (0 : Fin 1) r d)) (fun t' d => k (ix3 (0 : Fin 1) t' d)) t := by
  unfold scoresV score
  show FloatOps.matmul (F := Ideal) Dqk none (shapeCast S256x1024 q shapeCasts_S1x256x1024_S256x1024 : FVec Ideal S256x1024 .bf16)
      (shapeCast S2048x1024 k shapeCasts_S1x2048x1024_S2048x1024 : FVec Ideal S2048x1024 .bf16) (constant S256x2048 .f32 0x00000000#32) (ix2 r t) * eighth = _
  rw [qk_apply]
  refine congrArg (· * eighth) (Finset.sum_congr rfl fun d _ => ?_)
  rw [shapeCast_1ab_ab_apply, shapeCast_1ab_ab_apply]

/-- A row's maximum is the fold of `max` over that row's scores. -/
theorem rowMaxV_apply (σ : FVec Ideal S256x2048 .f32) (r : Fin 256) :
    rowMaxV σ (ix1 r) = rowMax (fun t => σ (ix2 r t)) := by
  unfold rowMaxV rowMax
  refine (Ideal.multiReduction_maximumf_single σ 0xFF800000#32 reduces_S256x2048_S256 (.inl rfl) rfl (ix1 r)).trans ?_
  refine congrArg (fun g => (Finset.univ : Finset (Fin 2048)).fold max floor g) (funext fun t => ?_)
  exact congrArg σ (funext fun a => Fin.ext (by match a with | ⟨0, _⟩ => rfl | ⟨1, _⟩ => rfl))

/-- A weight: the exponential of the score below its row's maximum. -/
theorem weightsV_apply (σ : FVec Ideal S256x2048 .f32) (r : Fin 256) (t : Fin 2048) :
    weightsV σ (ix2 r t) = weight (fun t' => σ (ix2 r t')) t := by
  unfold weightsV weight
  show Ideal.exp (σ (ix2 r t) - broadcastTo S256x2048 (shapeCast S256x1 (rowMaxV σ) shapeCasts_S256_S256x1 : FVec Ideal S256x1 .f32) broadcasts_S256x1_S256x2048 (ix2 r t)) = _
  rw [Cert.KernelIdeal.Val.broadcastTo_a1_ab_apply, Cert.KernelIdeal.Val.shapeCast_a_a1_apply, rowMaxV_apply]

/-- A row's sum of weights. -/
theorem rowSumV_apply (w : FVec Ideal S256x2048 .f32) (r : Fin 256) :
    rowSumV w (ix1 r) = ∑ t : Fin 2048, w (ix2 r t) := by
  unfold rowSumV
  refine (Ideal.multiReduction_add_single w 0x00000000#32 reduces_S256x2048_S256 (.inl rfl) rfl (ix1 r)).trans ?_
  refine Finset.sum_congr rfl fun t _ => ?_
  exact congrArg w (funext fun a => Fin.ext (by match a with | ⟨0, _⟩ => rfl | ⟨1, _⟩ => rfl))

/-- A normalised weight: the weight over its row's sum. -/
theorem probsV_apply (w : FVec Ideal S256x2048 .f32) (r : Fin 256) (t : Fin 2048) :
    probsV w (ix2 r t) = Ideal.div (w (ix2 r t)) (∑ t' : Fin 2048, w (ix2 r t')) := by
  unfold probsV
  show Ideal.div (w (ix2 r t)) (broadcastTo S256x2048 (shapeCast S256x1 (rowSumV w) shapeCasts_S256_S256x1 : FVec Ideal S256x1 .f32) broadcasts_S256x1_S256x2048 (ix2 r t)) = _
  rw [Cert.KernelIdeal.Val.broadcastTo_a1_ab_apply, Cert.KernelIdeal.Val.shapeCast_a_a1_apply, rowSumV_apply]

/-- An attended entry: the row's normalised weights against column `e` of the value rows. -/
theorem ctxV_apply (p : FVec Ideal S256x2048 .bf16) (v : Vec Ideal S1x2048x1024 .bf16) (r : Fin 256) (e : Fin 1024) :
    ctxV p v (ix2 r e) = ∑ t : Fin 2048, p (ix2 r t) * v (ix3 (0 : Fin 1) t e) := by
  unfold ctxV
  show FloatOps.matmul (F := Ideal) (Cert.LibPlainDot.dims dot_S256x2048_S2048x1024_S256x1024_1_0_0_1_n_n_wf) none p
      (shapeCast S2048x1024 v shapeCasts_S1x2048x1024_S2048x1024 : FVec Ideal S2048x1024 .bf16) (constant S256x1024 .f32 0x00000000#32) (ix2 r e) = _
  rw [Cert.LibPlainDot.matmul_zero_apply]
  refine Finset.sum_congr rfl fun t _ => ?_
  rw [shapeCast_1ab_ab_apply]

/-- An output entry: the attended row against column `f` of the projection, plus the bias. -/
theorem outV_apply (c : FVec Ideal S256x1024 .bf16) (wo : Vec Ideal S1024x1024 .bf16) (bo : Vec Ideal S1x1024 .f32)
    (r : Fin 256) (f : Fin 1024) :
    outV c wo bo (ix3 (0 : Fin 1) r f) = (∑ d : Fin 1024, c (ix2 r d) * wo (ix2 d f)) + bo (ix2 (0 : Fin 1) f) := by
  unfold outV
  rw [shapeCast_ab_1ab_apply]
  show FloatOps.matmul (F := Ideal) (Cert.LibPlainDot.dims dot_S256x1024_S1024x1024_S256x1024_1_0_0_1_n_n_wf) none c
      (shapeCast S1024x1024 wo shapeCasts_S1024x1024_S1024x1024 : FVec Ideal S1024x1024 .bf16) (constant S256x1024 .f32 0x00000000#32) (ix2 r f)
    + broadcastTo S256x1024 (shapeCast S1x1024 bo shapeCasts_S1x1024_S1x1024 : FVec Ideal S1x1024 .f32) broadcasts_S1x1024_S256x1024 (ix2 r f) = _
  rw [Cert.LibPlainDot.matmul_zero_apply, broadcastTo_1b_ab_apply, shapeCast_self, shapeCast_self]

/-! ## The body at an entry -/

/-- Entry (0, r, f) of the stored block is the specification's output row for query row `r` of the block, at `f`. -/
theorem pay_apply (q : Vec Ideal S1x256x1024 .bf16) (k v : Vec Ideal S1x2048x1024 .bf16) (wo : Vec Ideal S1024x1024 .bf16)
    (bo : Vec Ideal S1x1024 .f32) (r : Fin 256) (f : Fin 1024) :
    k1_pay1 (F := Ideal) q k v wo bo (ix3 (0 : Fin 1) r f)
      = attendRow (fun d => q (ix3 (0 : Fin 1) r d)) (fun t d => k (ix3 (0 : Fin 1) t d)) (fun t d => v (ix3 (0 : Fin 1) t d))
          (fun d f' => wo (ix2 d f')) (fun f' => bo (ix2 (0 : Fin 1) f')) f := by
  rw [pay_eq, outV_apply]
  unfold attendRow affineRow
  refine congrArg (· + bo (ix2 (0 : Fin 1) f)) (Finset.sum_congr rfl fun d _ => congrArg (· * wo (ix2 d f)) ?_)
  rw [ctxV_apply]
  unfold context
  refine Finset.sum_congr rfl fun t _ => congrArg (· * v (ix3 (0 : Fin 1) t d)) ?_
  rw [probsV_apply]
  have hσ : (fun t' => scoresV q k (ix2 r t')) = score (fun d => q (ix3 (0 : Fin 1) r d)) (fun t' d => k (ix3 (0 : Fin 1) t' d)) :=
    funext fun t' => scoresV_apply q k r t'
  have hw : ∀ t' : Fin 2048, weightsV (scoresV q k) (ix2 r t')
      = weight (score (fun d => q (ix3 (0 : Fin 1) r d)) (fun t' d => k (ix3 (0 : Fin 1) t' d))) t' := fun t' => by
    rw [weightsV_apply, hσ]
  unfold prob
  rw [hw t, Finset.sum_congr rfl fun t' _ => hw t']

end Cert.KernelIdeal.AttnBody

end
-- ==== Proof.Region1.lean ====
/-
  What the attention region leaves in its result array, as one function of the arrays it found.

  The region's grid is 4 batch entries × 8 blocks of 256 query rows. At point (n, j) the body reads query rows
  256·j … 256·j + 255 of batch entry n, all 2048 key rows and all 2048 value rows of that entry, the whole output
  projection and its bias row, and writes result rows 256·j … 256·j + 255 of entry n. So entry (n, s, f) of the result
  is the specification's output row for query row s of entry n against that entry's keys and values; the 32 blocks
  tile the array, so the whole array ends at that function.
-/
import proofs.«103212_j63763084476445_2_alg».proof.Proof.Gen.KernelIdeal.Frame
import proofs.«103212_j63763084476445_2_alg».proof.Proof.Spec
import proofs.«103212_j63763084476445_2_alg».proof.Proof.AttnBody
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.Attention
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The result array as one function of the five arrays the region stages: queries, keys, values (each
    [4, 2048, 1024]), the output projection [1024, 1024] and its bias row [1, 1024]. -/
def attended (Q K' V' : S4x2048x1024.Idx → EReal) (Wo : S1024x1024.Idx → EReal) (Bo : S1x1024.Idx → EReal) :
    S4x2048x1024.Idx → EReal := fun i =>
  attendRow (fun d => Q (ix3 (i 0) (i 1) d)) (fun t d => K' (ix3 (i 0) t d)) (fun t d => V' (ix3 (i 0) t d))
    (fun d f => Wo (ix2 d f)) (fun f => Bo (ix2 (0 : Fin 1) f)) (i 2)

/-- ONE ENTRY OF ONE BLOCK. If the query block's row r is row (i 0, i 1) of the query array, the key and value
    blocks are batch entry i 0 of theirs, the projection and bias blocks are their arrays, and the entry's column is
    i 2, then the body's stored value at (0, r, ·) is the result function at i. -/
theorem block_entry (q : Vec Ideal S1x256x1024 .bf16) (k v : Vec Ideal S1x2048x1024 .bf16) (wo : Vec Ideal S1024x1024 .bf16)
    (bo : Vec Ideal S1x1024 .f32)
    (Q K' V' : S4x2048x1024.Idx → EReal) (Wo : S1024x1024.Idx → EReal) (Bo : S1x1024.Idx → EReal)
    (y : S1x256x1024.Idx) (r : Fin 256) (f : Fin 1024) (i : S4x2048x1024.Idx)
    (hr : (y 1).val = r.val) (hf : (y 2).val = f.val) (hi2 : (i 2).val = f.val)
    (hq : ∀ d : Fin 1024, q (ix3 (0 : Fin 1) r d) = Q (ix3 (i 0) (i 1) d))
    (hk : ∀ (t : Fin 2048) (d : Fin 1024), k (ix3 (0 : Fin 1) t d) = K' (ix3 (i 0) t d))
    (hv : ∀ (t : Fin 2048) (d : Fin 1024), v (ix3 (0 : Fin 1) t d) = V' (ix3 (i 0) t d))
    (hwo : ∀ d f' : Fin 1024, wo (ix2 d f') = Wo (ix2 d f'))
    (hbo : ∀ f' : Fin 1024, bo (ix2 (0 : Fin 1) f') = Bo (ix2 (0 : Fin 1) f')) :
    k1_pay1 (F := Ideal) q k v wo bo y = attended Q K' V' Wo Bo i := by
  have hy : y = ix3 (0 : Fin 1) r f := funext fun a => Fin.ext (by
    match a with
    | ⟨0, _⟩ => have h0 : (y 0).val < 1 := (y 0).isLt; show (y 0).val = 0; omega
    | ⟨1, _⟩ => exact hr
    | ⟨2, _⟩ => exact hf)
  have hi : i 2 = f := Fin.ext hi2
  have e1 : (fun d => q (ix3 (0 : Fin 1) r d)) = fun d => Q (ix3 (i 0) (i 1) d) := funext hq
  have e2 : (fun t d => k (ix3 (0 : Fin 1) t d)) = fun t d => K' (ix3 (i 0) t d) := funext fun t => funext fun d => hk t d
  have e3 : (fun t d => v (ix3 (0 : Fin 1) t d)) = fun t d => V' (ix3 (i 0) t d) := funext fun t => funext fun d => hv t d
  have e4 : (fun d f' => wo (ix2 d f')) = fun d f' => Wo (ix2 d f') := funext fun d => funext fun f' => hwo d f'
  have e5 : (fun f' => bo (ix2 (0 : Fin 1) f')) = fun f' => Bo (ix2 (0 : Fin 1) f') := funext hbo
  unfold attended
  rw [hy, AttnBody.pay_apply, e1, e2, e3, e4, e5, hi]

/-- The printed index maps, decided over the 32 grid points: the query and result blocks move together over batch
    entry and row block; the key and value blocks follow the batch entry alone; the projection and bias stay. -/
theorem idx_facts : ∀ t : Fin cfg1.N,
    win1_0.index t (0 : Fin 3) = win1_5.index t (0 : Fin 3) ∧ win1_0.index t (1 : Fin 3) = win1_5.index t (1 : Fin 3) ∧ win1_0.index t (2 : Fin 3) = 0
    ∧ win1_1.index t (0 : Fin 3) = win1_5.index t (0 : Fin 3) ∧ win1_1.index t (1 : Fin 3) = 0 ∧ win1_1.index t (2 : Fin 3) = 0
    ∧ win1_2.index t (0 : Fin 3) = win1_5.index t (0 : Fin 3) ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (2 : Fin 3) = 0 :=
  (by decide +kernel : ∀ t : Fin grid1.N, _)

/-- Every (batch entry, row block) is some point's result block. -/
theorem idx_onto : ∀ (n : Fin 4) (j : Fin 8), ∃ t : Fin cfg1.N, win1_5.index t = ![n.val, j.val, 0] :=
  (by decide +kernel : ∀ (n : Fin 4) (j : Fin 8), ∃ t : Fin grid1.N, win1_5.index t = ![n.val, j.val, 0])

/-- WHAT POINT t WRITES BACK is block t of the result function of the arrays the region found. -/
theorem flushed_eq (c : Dev nD) (t : Fin cfg1.N) :
    (dat1 (F := Ideal) V c).flushed 5 t = ((cfg1.win 5).blk t).view.read (Elt Ideal)
      (attended (V c main_v11) (V c main_v12) (V c main_v13) (V c main_v5) (V c main_v9)) := by
  show (cfg1.win 5).cut (grid1.coords t) ((dat1 V c).after 5 t) = _
  rw [after1_5]
  unfold out1_5
  rw [View.canon_unit_zero hz3]
  simp only [View.ld_unit_zero (S := S1x256x1024) hz3, View.ld_unit_zero (S := S1x2048x1024) hz3,
    View.ld_unit_zero (S := S1024x1024) hz2, View.ld_unit_zero (S := S1x1024) hz2]
  obtain ⟨a00, a01, a02, a10, a11, a12, a20, a21, a22, a30, a31, a40, a41, a52⟩ := idx_facts t
  funext y
  show k1_pay1 (F := Ideal) (iblk1 V c 0 t) (iblk1 V c 1 t) (iblk1 V c 2 t) (iblk1 V c 3 t) (iblk1 V c 4 t) y
    = attended (V c main_v11) (V c main_v12) (V c main_v13) (V c main_v5) (V c main_v9) (((cfg1.win 5).blk t).view.emb y)
  have hy0 : (y 0).val < 1 := (y 0).isLt
  have hy1 : (y 1).val < 256 := (y 1).isLt
  have hy2 : (y 2).val < 1024 := (y 2).isLt
  have em0 : ((((cfg1.win 5).blk t).view.emb y) 0).val = win1_5.index t (0 : Fin 3) * 1 + 1 * (y 0).val := rfl
  have em1 : ((((cfg1.win 5).blk t).view.emb y) 1).val = win1_5.index t (1 : Fin 3) * 256 + 1 * (y 1).val := rfl
  have em2 : ((((cfg1.win 5).blk t).view.emb y) 2).val = win1_5.index t (2 : Fin 3) * 1024 + 1 * (y 2).val := rfl
  refine block_entry _ _ _ _ _ _ _ _ _ _ y ⟨(y 1).val, hy1⟩ ⟨(y 2).val, hy2⟩ _ rfl rfl (by rw [em2, a52]; show 0 * 1024 + 1 * (y 2).val = (y 2).val; omega)
    (fun d => ?_) (fun t' d => ?_) (fun t' d => ?_) (fun d f' => ?_) (fun f' => ?_)
  · show V c main_v11 (((cfg1.win 0).blk t).view.emb (ix3 (0 : Fin 1) ⟨(y 1).val, hy1⟩ d)) = _
    refine congrArg (V c main_v11) (funext fun a => Fin.ext ?_)
    match a with
    | ⟨0, _⟩ => show win1_0.index t (0 : Fin 3) * 1 + 1 * 0 = ((((cfg1.win 5).blk t).view.emb y) 0).val; rw [em0, a00]; omega
    | ⟨1, _⟩ => show win1_0.index t (1 : Fin 3) * 256 + 1 * (y 1).val = ((((cfg1.win 5).blk t).view.emb y) 1).val; rw [em1, a01]
    | ⟨2, _⟩ => show win1_0.index t (2 : Fin 3) * 1024 + 1 * d.val = d.val; rw [a02]; omega
  · show V c main_v12 (((cfg1.win 1).blk t).view.emb (ix3 (0 : Fin 1) t' d)) = _
    refine congrArg (V c main_v12) (funext fun a => Fin.ext ?_)
    match a with
    | ⟨0, _⟩ => show win1_1.index t (0 : Fin 3) * 1 + 1 * 0 = ((((cfg1.win 5).blk t).view.emb y) 0).val; rw [em0, a10]; omega
    | ⟨1, _⟩ => show win1_1.index t (1 : Fin 3) * 2048 + 1 * t'.val = t'.val; rw [a11]; omega
    | ⟨2, _⟩ => show win1_1.index t (2 : Fin 3) * 1024 + 1 * d.val = d.val; rw [a12]; omega
  · show V c main_v13 (((cfg1.win 2).blk t).view.emb (ix3 (0 : Fin 1) t' d)) = _
    refine congrArg (V c main_v13) (funext fun a => Fin.ext ?_)
    match a with
    | ⟨0, _⟩ => show win1_2.index t (0 : Fin 3) * 1 + 1 * 0 = ((((cfg1.win 5).blk t).view.emb y) 0).val; rw [em0, a20]; omega
    | ⟨1, _⟩ => show win1_2.index t (1 : Fin 3) * 2048 + 1 * t'.val = t'.val; rw [a21]; omega
    | ⟨2, _⟩ => show win1_2.index t (2 : Fin 3) * 1024 + 1 * d.val = d.val; rw [a22]; omega
  · show V c main_v5 (((cfg1.win 3).blk t).view.emb (ix2 d f')) = _
    refine congrArg (V c main_v5) (funext fun a => Fin.ext ?_)
    match a with
    | ⟨0, _⟩ => show win1_3.index t (0 : Fin 2) * 1024 + 1 * d.val = d.val; rw [a30]; omega
    | ⟨1, _⟩ => show win1_3.index t (1 : Fin 2) * 1024 + 1 * f'.val = f'.val; rw [a31]; omega
  · show V c main_v9 (((cfg1.win 4).blk t).view.emb (ix2 (0 : Fin 1) f')) = _
    refine congrArg (V c main_v9) (funext fun a => Fin.ext ?_)
    match a with
    | ⟨0, _⟩ => show win1_4.index t (0 : Fin 2) * 1 + 1 * 0 = 0; rw [a40]
    | ⟨1, _⟩ => show win1_4.index t (1 : Fin 2) * 1024 + 1 * f'.val = f'.val; rw [a41]; omega

/-- An index of the array is in point t's block iff each coordinate is in the block's range on its axis. -/
theorem mem_blk (t : Fin cfg1.N) (i : S4x2048x1024.Idx) :
    i ∈ ((cfg1.win 5).blk t).view.set ↔ ∀ a : Fin 3, win1_5.index t a * S1x256x1024.size a ≤ (i a).val
      ∧ (i a).val < win1_5.index t a * S1x256x1024.size a + S1x256x1024.size a := by
  show i ∈ ((View.whole main_v14).slice (win1_5.rect t)).set ↔ _
  rw [View.set_slice_whole, Rect.mem_set_unit]
  exact Iff.rfl

/-- The 32 blocks cover the array: row s of batch entry n lies in the block of point (n, s / 256). -/
theorem cover (i : S4x2048x1024.Idx) : ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win1_5.index t (0 : Fin 3) = (i 0).val := congrFun ht 0
  have q1 : win1_5.index t (1 : Fin 3) = (i 1).val / 256 := congrFun ht 1
  have q2 : win1_5.index t (2 : Fin 3) = 0 := congrFun ht 2
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 1024 ≤ (i 2).val ∧ (i 2).val < win1_5.index t (2 : Fin 3) * 1024 + 1024; omega

/-- THE RESULT ARRAY after the region: the result function of the arrays the region found. -/
theorem arr5 (c : Dev nD) : (dat1 (F := Ideal) V c).arrAt 5 cfg1.N
    = attended (V c main_v11) (V c main_v12) (V c main_v13) (V c main_v5) (V c main_v9) :=
  (dat1 V c).arrAt_eq_of_cover 5 _ (fun t _ => flushed_eq V c t) cover

end Cert.KernelIdeal.Region1

end
-- ==== Proof.KernelValue.lean ====
/-
  The idealized kernel's result as one function of its nine arguments.

  The program's four stretches are read one after the other. Before the first region the input [4, 2048, 1024] is
  flattened to [8192, 1024] rows (row n·2048 + s is row s of batch entry n), the weights keep their entries (a change
  of float format is the identity on the extended reals), and each bias vector becomes a row [1, 1024]. The first region
  leaves the three affine images x·W + b of the flattened rows. Three reshapes give them back their batch axis. The
  second region leaves the attention result of those three arrays through the output projection. Composed, the
  result is the specification's G of the arguments.
-/
import proofs.«103212_j63763084476445_2_alg».proof.Proof.Gen.KernelIdeal.Frame
import proofs.«103212_j63763084476445_2_alg».proof.Proof.Spec
import proofs.«103212_j63763084476445_2_alg».proof.Proof.KernelRun
import proofs.«103212_j63763084476445_2_alg».proof.Proof.Region0
import proofs.«103212_j63763084476445_2_alg».proof.Proof.Region1
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx Cert.Attention

variable (m : (ℓ : Loc nD τ sig) → Buf (Elt Ideal) ℓ) (ρ : Dev nD → PrngReg)

/-! ## Before the first region -/

/-- The flattened input: row n·2048 + s of the [8192, 1024] array is row s of batch entry n of the argument. -/
theorem rows_entry (c : Dev nD) (R : Fin 8192) (d : Fin 1024) (n : Fin 4) (s : Fin 2048) (hR : R.val = n.val * 2048 + s.val) :
    (V1 (F := Ideal) m ρ c main_v1 : S8192x1024.Idx → EReal) (ix2 R d)
      = (m ((c : Thread nD τ).loc main_arg0) : S4x2048x1024.Idx → EReal) (ix3 n s d) := by
  have e : (V1 (F := Ideal) m ρ c main_v1 : S8192x1024.Idx → EReal)
      = (truncf .bf16 (shapeCast S8192x1024 (m ((c : Thread nD τ).loc main_arg0) : S4x2048x1024.Idx → EReal) shapeCasts_S4x2048x1024_S8192x1024 : FVec Ideal S8192x1024 .f32) bitsLt_bf16_f32 : FVec Ideal S8192x1024 .bf16) := by
    show StableHlo.after hostOps0 (W0 m ρ c) (Proc.devRef .tc main_v1) = _
    after_results; rfl
  rw [e]
  show shapeCast S8192x1024 (m ((c : Thread nD τ).loc main_arg0) : S4x2048x1024.Idx → EReal) shapeCasts_S4x2048x1024_S8192x1024 (ix2 R d) = _
  refine shapeCast_apply _ _ _ _ ?_
  show (S4x2048x1024.rowMajor (ix3 n s d)).val = (S8192x1024.rowMajor (ix2 R d)).val
  rw [Shape.rowMajor_val_three, Shape.rowMajor_val_two]
  show (n.val * 2048 + s.val) * 1024 + d.val = R.val * 1024 + d.val
  rw [hR]

/-- A weight matrix keeps its entries through the change of format. -/
theorem weight_q (c : Dev nD) : (V1 (F := Ideal) m ρ c main_v2 : S1024x1024.Idx → EReal) = (m ((c : Thread nD τ).loc main_arg1) : S1024x1024.Idx → EReal) := by
  show StableHlo.after hostOps0 (W0 m ρ c) (Proc.devRef .tc main_v2) = _
  after_results; rfl
theorem weight_k (c : Dev nD) : (V1 (F := Ideal) m ρ c main_v3 : S1024x1024.Idx → EReal) = (m ((c : Thread nD τ).loc main_arg3) : S1024x1024.Idx → EReal) := by
  show StableHlo.after hostOps0 (W0 m ρ c) (Proc.devRef .tc main_v3) = _
  after_results; rfl
theorem weight_v (c : Dev nD) : (V1 (F := Ideal) m ρ c main_v4 : S1024x1024.Idx → EReal) = (m ((c : Thread nD τ).loc main_arg5) : S1024x1024.Idx → EReal) := by
  show StableHlo.after hostOps0 (W0 m ρ c) (Proc.devRef .tc main_v4) = _
  after_results; rfl
theorem weight_o (c : Dev nD) : (V1 (F := Ideal) m ρ c main_v5 : S1024x1024.Idx → EReal) = (m ((c : Thread nD τ).loc main_arg7) : S1024x1024.Idx → EReal) := by
  show StableHlo.after hostOps0 (W0 m ρ c) (Proc.devRef .tc main_v5) = _
  after_results; rfl

/-- A bias vector made a row: entry (0, f) of the row is entry f of the vector. -/
theorem bias_q (c : Dev nD) (f : Fin 1024) : (V1 (F := Ideal) m ρ c main_v6 : S1x1024.Idx → EReal) (ix2 (0 : Fin 1) f)
    = (m ((c : Thread nD τ).loc main_arg2) : S1024.Idx → EReal) (ix1 f) := by
  have e : (V1 (F := Ideal) m ρ c main_v6 : S1x1024.Idx → EReal)
      = shapeCast S1x1024 (m ((c : Thread nD τ).loc main_arg2) : S1024.Idx → EReal) shapeCasts_S1024_S1x1024 := by
    show StableHlo.after hostOps0 (W0 m ρ c) (Proc.devRef .tc main_v6) = _
    after_results; rfl
  rw [e, shapeCast_a_1a_apply]
theorem bias_k (c : Dev nD) (f : Fin 1024) : (V1 (F := Ideal) m ρ c main_v7 : S1x1024.Idx → EReal) (ix2 (0 : Fin 1) f)
    = (m ((c : Thread nD τ).loc main_arg4) : S1024.Idx → EReal) (ix1 f) := by
  have e : (V1 (F := Ideal) m ρ c main_v7 : S1x1024.Idx → EReal)
      = shapeCast S1x1024 (m ((c : Thread nD τ).loc main_arg4) : S1024.Idx → EReal) shapeCasts_S1024_S1x1024 := by
    show StableHlo.after hostOps0 (W0 m ρ c) (Proc.devRef .tc main_v7) = _
    after_results; rfl
  rw [e, shapeCast_a_1a_apply]
theorem bias_v (c : Dev nD) (f : Fin 1024) : (V1 (F := Ideal) m ρ c main_v8 : S1x1024.Idx → EReal) (ix2 (0 : Fin 1) f)
    = (m ((c : Thread nD τ).loc main_arg6) : S1024.Idx → EReal) (ix1 f) := by
  have e : (V1 (F := Ideal) m ρ c main_v8 : S1x1024.Idx → EReal)
      = shapeCast S1x1024 (m ((c : Thread nD τ).loc main_arg6) : S1024.Idx → EReal) shapeCasts_S1024_S1x1024 := by
    show StableHlo.after hostOps0 (W0 m ρ c) (Proc.devRef .tc main_v8) = _
    after_results; rfl
  rw [e, shapeCast_a_1a_apply]
theorem bias_o (c : Dev nD) (f : Fin 1024) : (V1 (F := Ideal) m ρ c main_v9 : S1x1024.Idx → EReal) (ix2 (0 : Fin 1) f)
    = (m ((c : Thread nD τ).loc main_arg8) : S1024.Idx → EReal) (ix1 f) := by
  have e : (V1 (F := Ideal) m ρ c main_v9 : S1x1024.Idx → EReal)
      = shapeCast S1x1024 (m ((c : Thread nD τ).loc main_arg8) : S1024.Idx → EReal) shapeCasts_S1024_S1x1024 := by
    show StableHlo.after hostOps0 (W0 m ρ c) (Proc.devRef .tc main_v9) = _
    after_results; rfl
  rw [e, shapeCast_a_1a_apply]

/-! ## After the first region: the three affine images, with their batch axis back -/

/-- The reshape [8192, 1024] → [4, 2048, 1024] reads entry (n, s, e) at row n·2048 + s. -/
theorem unflatten (X : S8192x1024.Idx → EReal) (n : Fin 4) (s : Fin 2048) (e : Fin 1024) :
    shapeCast S4x2048x1024 X shapeCasts_S8192x1024_S4x2048x1024 (ix3 n s e)
      = X (ix2 (⟨n.val * 2048 + s.val, by have := n.isLt; have := s.isLt; omega⟩ : Fin 8192) e) := by
  refine shapeCast_apply _ _ _ _ ?_
  rw [Shape.rowMajor_val_three, Shape.rowMajor_val_two]
  rfl

/-- The queries the second region finds: entry (n, s, e) is the affine image of input row (n, s) under Wq, bq. -/
theorem query_entry (c : Dev nD) (n : Fin 4) (s : Fin 2048) (e : Fin 1024) :
    (V3 (F := Ideal) m ρ c main_v11 : S4x2048x1024.Idx → EReal) (ix3 n s e)
      = affineRow (fun d => (m ((c : Thread nD τ).loc main_arg0) : S4x2048x1024.Idx → EReal) (ix3 n s d))
          (fun d f => (m ((c : Thread nD τ).loc main_arg1) : S1024x1024.Idx → EReal) (ix2 d f))
          (fun f => (m ((c : Thread nD τ).loc main_arg2) : S1024.Idx → EReal) (ix1 f)) e := by
  have e3 : (V3 (F := Ideal) m ρ c main_v11 : S4x2048x1024.Idx → EReal)
      = shapeCast S4x2048x1024 (W2 m ρ c (Proc.devRef .tc main_v10_0) : S8192x1024.Idx → EReal) shapeCasts_S8192x1024_S4x2048x1024 := by
    show StableHlo.after hostOps1 (W2 m ρ c) (Proc.devRef .tc main_v11) = _
    after_results; rfl
  rw [e3, unflatten, show (W2 m ρ c (Proc.devRef .tc main_v10_0) : S8192x1024.Idx → EReal) = _ from (W2_arr m ρ c 7).trans (Region0.arr7 (V1 m ρ) c)]
  show affineRow (fun d => (V1 (F := Ideal) m ρ c main_v1 : S8192x1024.Idx → EReal) (ix2 (⟨n.val * 2048 + s.val, _⟩ : Fin 8192) d))
      (fun d f => (V1 (F := Ideal) m ρ c main_v2 : S1024x1024.Idx → EReal) (ix2 d f))
      (fun f => (V1 (F := Ideal) m ρ c main_v6 : S1x1024.Idx → EReal) (ix2 (0 : Fin 1) f)) e = _
  rw [weight_q, funext fun d => rows_entry m ρ c _ d n s rfl, funext fun f => bias_q m ρ c f]

/-- The keys: the affine image under Wk, bk. -/
theorem key_entry (c : Dev nD) (n : Fin 4) (s : Fin 2048) (e : Fin 1024) :
    (V3 (F := Ideal) m ρ c main_v12 : S4x2048x1024.Idx → EReal) (ix3 n s e)
      = affineRow (fun d => (m ((c : Thread nD τ).loc main_arg0) : S4x2048x1024.Idx → EReal) (ix3 n s d))
          (fun d f => (m ((c : Thread nD τ).loc main_arg3) : S1024x1024.Idx → EReal) (ix2 d f))
          (fun f => (m ((c : Thread nD τ).loc main_arg4) : S1024.Idx → EReal) (ix1 f)) e := by
  have e3 : (V3 (F := Ideal) m ρ c main_v12 : S4x2048x1024.Idx → EReal)
      = shapeCast S4x2048x1024 (W2 m ρ c (Proc.devRef .tc main_v10_1) : S8192x1024.Idx → EReal) shapeCasts_S8192x1024_S4x2048x1024 := by
    show StableHlo.after hostOps1 (W2 m ρ c) (Proc.devRef .tc main_v12) = _
    after_results; rfl
  rw [e3, unflatten, show (W2 m ρ c (Proc.devRef .tc main_v10_1) : S8192x1024.Idx → EReal) = _ from (W2_arr m ρ c 8).trans (Region0.arr8 (V1 m ρ) c)]
  show affineRow (fun d => (V1 (F := Ideal) m ρ c main_v1 : S8192x1024.Idx → EReal) (ix2 (⟨n.val * 2048 + s.val, _⟩ : Fin 8192) d))
      (fun d f => (V1 (F := Ideal) m ρ c main_v3 : S1024x1024.Idx → EReal) (ix2 d f))
      (fun f => (V1 (F := Ideal) m ρ c main_v7 : S1x1024.Idx → EReal) (ix2 (0 : Fin 1) f)) e = _
  rw [weight_k, funext fun d => rows_entry m ρ c _ d n s rfl, funext fun f => bias_k m ρ c f]

/-- The values: the affine image under Wv, bv. -/
theorem value_entry (c : Dev nD) (n : Fin 4) (s : Fin 2048) (e : Fin 1024) :
    (V3 (F := Ideal) m ρ c main_v13 : S4x2048x1024.Idx → EReal) (ix3 n s e)
      = affineRow (fun d => (m ((c : Thread nD τ).loc main_arg0) : S4x2048x1024.Idx → EReal) (ix3 n s d))
          (fun d f => (m ((c : Thread nD τ).loc main_arg5) : S1024x1024.Idx → EReal) (ix2 d f))
          (fun f => (m ((c : Thread nD τ).loc main_arg6) : S1024.Idx → EReal) (ix1 f)) e := by
  have e3 : (V3 (F := Ideal) m ρ c main_v13 : S4x2048x1024.Idx → EReal)
      = shapeCast S4x2048x1024 (W2 m ρ c (Proc.devRef .tc main_v10_2) : S8192x1024.Idx → EReal) shapeCasts_S8192x1024_S4x2048x1024 := by
    show StableHlo.after hostOps1 (W2 m ρ c) (Proc.devRef .tc main_v13) = _
    after_results; rfl
  rw [e3, unflatten, show (W2 m ρ c (Proc.devRef .tc main_v10_2) : S8192x1024.Idx → EReal) = _ from (W2_arr m ρ c 9).trans (Region0.arr9 (V1 m ρ) c)]
  show affineRow (fun d => (V1 (F := Ideal) m ρ c main_v1 : S8192x1024.Idx → EReal) (ix2 (⟨n.val * 2048 + s.val, _⟩ : Fin 8192) d))
      (fun d f => (V1 (F := Ideal) m ρ c main_v4 : S1024x1024.Idx → EReal) (ix2 d f))
      (fun f => (V1 (F := Ideal) m ρ c main_v8 : S1x1024.Idx → EReal) (ix2 (0 : Fin 1) f)) e = _
  rw [weight_v, funext fun d => rows_entry m ρ c _ d n s rfl, funext fun f => bias_v m ρ c f]

/-- A buffer the three reshapes do not write and the first region does not stage as a window's array is, when the
    second region is entered, what it was when the first was. -/
theorem kept_o (c : Dev nD) : (V3 (F := Ideal) m ρ c main_v5 : S1024x1024.Idx → EReal) = (V1 (F := Ideal) m ρ c main_v5 : S1024x1024.Idx → EReal) :=
  calc W3 m ρ c (Proc.devRef .tc main_v5)
    _ = W2 m ρ c (Proc.devRef .tc main_v5) := StableHlo.after_of_forall_not_mem (b := Proc.devRef .tc main_v5) _ _ (List.forall_iff_forall_mem.mp (by
          simp only [hostOps1, List.Forall, StableHlo.reshape_writes, Finset.mem_singleton]
          repeat' apply And.intro
          all_goals exact StableHlo.devRef_ne_of_ne (by decide)))
    _ = W1 m ρ c (Proc.devRef .tc main_v5) := W2_of_ne m ρ c main_v5 (by decide)
theorem kept_bo (c : Dev nD) : (V3 (F := Ideal) m ρ c main_v9 : S1x1024.Idx → EReal) = (V1 (F := Ideal) m ρ c main_v9 : S1x1024.Idx → EReal) :=
  calc W3 m ρ c (Proc.devRef .tc main_v9)
    _ = W2 m ρ c (Proc.devRef .tc main_v9) := StableHlo.after_of_forall_not_mem (b := Proc.devRef .tc main_v9) _ _ (List.forall_iff_forall_mem.mp (by
          simp only [hostOps1, List.Forall, StableHlo.reshape_writes, Finset.mem_singleton]
          repeat' apply And.intro
          all_goals exact StableHlo.devRef_ne_of_ne (by decide)))
    _ = W1 m ρ c (Proc.devRef .tc main_v9) := W2_of_ne m ρ c main_v9 (by decide)

/-! ## The result -/

/-- The result buffer after the run is the specification's function of the nine arguments. -/
theorem out_eq (c : Dev nD) :
    (W4 (F := Ideal) m ρ c (Proc.devRef .tc main_v14) : S4x2048x1024.Idx → EReal)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  rw [show (W4 (F := Ideal) m ρ c (Proc.devRef .tc main_v14) : S4x2048x1024.Idx → EReal) = _ from (W4_arr m ρ c 5).trans (Region1.arr5 (V3 m ρ) c)]
  funext i
  unfold Region1.attended G
  rw [kept_o, kept_bo, weight_o,
    funext fun e => query_entry m ρ c (i 0) (i 1) e,
    funext fun t => funext fun e => key_entry m ρ c (i 0) t e,
    funext fun t => funext fun e => value_entry m ρ c (i 0) t e,
    funext fun f => bias_o m ρ c f]

/-- THE RUN, READ: every weakly fair execution terminates without a fault, the result buffer at G of the arguments,
    the arguments as launched. -/
theorem run : θ_run defs (onTc (τ := τ) (main (F := Ideal))) ⟨m, fun _ => 0, ρ⟩ (fun r => ∀ c : Dev nD,
      r.2.mem ((c.tc : Thread nD τ).loc main_v14)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (out_eq m ρ c), (h c).2⟩) (Run.run_out (F := Ideal) m ρ)

end Cert.KernelIdeal.Whole

end
-- ==== Proof.RefValue.lean ====
/-
  The reference program computes the attention function of the specification.

  The reference is a chain of whole-array operations; read at one index (n, s, ·) of the result, each of them is a
  row-wise operation of the specification:

    * the three projections are entry f of the row x(n, s, ·) · W + b;
    * the scaled scores divide the product of a query row with a key row by the square root of 64, which is the
      multiplication by 1/8;
    * the row maximum is a fold of max over the keys t, from −∞, taken once more against −∞;
    * the weights are the exponentials of the scores below that maximum, their sum starts from the word of 0, and
      the probabilities are the weights divided by the sum;
    * the context is the probabilities' combination of the value rows, and the result its affine image.

  Every sum and every fold stays a sum or a fold over the key or feature coordinate: only the indices at which
  the operands are read are computed.
-/
import proofs.«103212_j63763084476445_2_alg».proof.Proof.Gen.ReferenceIdeal.Read
import proofs.«103212_j63763084476445_2_alg».proof.Proof.Spec

noncomputable section

namespace Cert.ReferenceIdeal.RefValue

open Cert.ReferenceIdeal Cert.ReferenceIdeal.Gen Cert.ReferenceIdeal.Read Cert.Attention
open Idealize.ShloMosaic Idealize.ShloMosaic.ValueIdx

variable (x0 : (⟨S4x2048x1024, .f32⟩ : BufTy).Contents (Elt Ideal))
  (x1 : (⟨S1024x1024, .f32⟩ : BufTy).Contents (Elt Ideal)) (x2 : (⟨S1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))
  (x7 : (⟨S1024x1024, .f32⟩ : BufTy).Contents (Elt Ideal)) (x8 : (⟨S1024, .f32⟩ : BufTy).Contents (Elt Ideal))

/-! ## An affine image of rows, at an entry -/

/-- A product of rows x(n, s, ·) with a matrix plus a bias broadcast along the rows, read at entry (n, s, f): the
    product contracts the row's coordinate d against the matrix's first axis, and the bias is read at f. -/
theorem affine_at (x : (⟨S4x2048x1024, .f32⟩ : BufTy).Contents (Elt Ideal))
    (W : (⟨S1024x1024, .f32⟩ : BufTy).Contents (Elt Ideal)) (b : (⟨S1024, .f32⟩ : BufTy).Contents (Elt Ideal))
    (n : Fin 4) (s : Fin 2048) (f : Fin 1024) :
    FloatOps.addf (F := Ideal) (φ := .f32) (val_main_v0 (F := Ideal) x W (ix3 n s f)) (val_main_v2 (F := Ideal) b (ix3 n s f))
      = affineRow (fun d => x (ix3 n s d)) (fun d f => W (ix2 d f)) (fun f => b (ix1 f)) f := by
  have el : ∀ k : Fin 1024, lidx_main_v0 (ix3 n s f) k = ix3 n s k := fun k => funext fun a => Fin.ext (by
    match a with | ⟨0, _⟩ => rfl | ⟨1, _⟩ => rfl | ⟨2, _⟩ => rfl)
  have er : ∀ k : Fin 1024, ridx_main_v0 (ix3 n s f) k = ix2 k f := fun k => funext fun a => Fin.ext (by
    match a with | ⟨0, _⟩ => rfl | ⟨1, _⟩ => rfl)
  have eb : idx_main_v1 (idx_main_v2 (ix3 n s f)) = ix1 f := funext fun a => Fin.ext (by
    match a with | ⟨0, _⟩ => rfl)
  rw [val_main_v0_apply, val_main_v2_apply, val_main_v1_apply, eb, Ideal.addf_def]
  simp only [el, er]
  rfl

/-- Entry f of the query row of position (n, s). -/
theorem query_at (n : Fin 4) (s : Fin 2048) (f : Fin 1024) :
    val_main_v3 (F := Ideal) x0 x1 x2 (ix3 n s f)
      = affineRow (fun d => x0 (ix3 n s d)) (fun d f => x1 (ix2 d f)) (fun f => x2 (ix1 f)) f :=
  affine_at x0 x1 x2 n s f

/-- Entry f of the key row of position (n, s). -/
theorem key_at (n : Fin 4) (s : Fin 2048) (f : Fin 1024) :
    val_main_v7 (F := Ideal) x0 x3 x4 (ix3 n s f)
      = affineRow (fun d => x0 (ix3 n s d)) (fun d f => x3 (ix2 d f)) (fun f => x4 (ix1 f)) f :=
  affine_at x0 x3 x4 n s f

/-- Entry f of the value row of position (n, s). -/
theorem value_at (n : Fin 4) (s : Fin 2048) (f : Fin 1024) :
    val_main_v11 (F := Ideal) x0 x5 x6 (ix3 n s f)
      = affineRow (fun d => x0 (ix3 n s d)) (fun d f => x5 (ix2 d f)) (fun f => x6 (ix1 f)) f :=
  affine_at x0 x5 x6 n s f

/-! ## The scores of a query row -/

/-- The score of query (n, s) against key t: the two rows' product over the feature coordinate, divided by the
    square root of 64, that is multiplied by 1/8. -/
theorem score_at (n : Fin 4) (s t : Fin 2048) :
    val_main_v15 (F := Ideal) x0 x1 x2 x3 x4 (ix3 n s t)
      = score (affineRow (fun d => x0 (ix3 n s d)) (fun d f => x1 (ix2 d f)) (fun f => x2 (ix1 f)))
          (fun t' => affineRow (fun d => x0 (ix3 n t' d)) (fun d f => x3 (ix2 d f)) (fun f => x4 (ix1 f))) t := by
  have el : ∀ k : Fin 1024, lidx_main_v12 (ix3 n s t) k = ix3 n s k := fun k => funext fun a => Fin.ext (by
    match a with | ⟨0, _⟩ => rfl | ⟨1, _⟩ => rfl | ⟨2, _⟩ => rfl)
  have er : ∀ k : Fin 1024, ridx_main_v12 (ix3 n s t) k = ix3 n t k := fun k => funext fun a => Fin.ext (by
    match a with | ⟨0, _⟩ => rfl | ⟨1, _⟩ => rfl | ⟨2, _⟩ => rfl)
  rw [val_main_v15_apply, val_main_v14_apply, val_main_v13_apply, val_main_cst_apply, val_main_v12_apply,
    Ideal.hostDivf_def, Ideal.hostUnary_sqrt_def, Ideal.ofBits_def, div_sqrt_64]
  simp only [el, er, query_at, key_at]
  rfl

/-! ## The softmax of a row of scores -/

/-- The row maximum at (n, s): the fold of max over the keys t from the word of −∞, and then the maximum with that
    word once more, which changes nothing. -/
theorem rowMax_at (n : Fin 4) (s : Fin 2048) :
    val_main_v18 (F := Ideal) x0 x1 x2 x3 x4 (ix2 n s)
      = rowMax (fun t => val_main_v15 (F := Ideal) x0 x1 x2 x3 x4 (ix3 n s t)) := by
  rw [val_main_v18_apply, val_main_v17_apply, val_main_cst_1_apply]
  unfold val_main_v16
  generalize val_main_v15 (F := Ideal) x0 x1 x2 x3 x4 = σ
  have hr := Host.reduce_eq_fold_single (FloatOps.maximumf (F := Ideal) (φ := .f32)) σ (val_main_cst_0 (F := Ideal))
    reducesTo_S4x2048x2048_S4x2048_d2 (by decide) h_S_ (ix2 n s)
  refine (congrArg (fun m : EReal => max floor m) hr).trans ?_
  have e : (σ ∘ Shape.Reduces.lift (by decide : S4x2048x2048.Reduces [2] S4x2048) (ix2 n s)) = fun t : Fin 2048 => σ (ix3 n s t) :=
    funext fun t => congrArg σ (funext fun a => Fin.ext (by
      match a with | ⟨0, _⟩ => rfl | ⟨1, _⟩ => rfl | ⟨2, _⟩ => rfl))
  exact (congrArg (fun g => max floor ((Finset.univ : Finset (Fin 2048)).fold max floor g)) e).trans
    (max_floor_rowMax _)

/-- The unnormalised weight of key t for query (n, s): the exponential of the score below the row's maximum, which
    two broadcasts bring from (n, s) to every key of the row. -/
theorem weight_at (n : Fin 4) (s t : Fin 2048) :
    val_main_v22 (F := Ideal) x0 x1 x2 x3 x4 (ix3 n s t)
      = weight (fun t' => val_main_v15 (F := Ideal) x0 x1 x2 x3 x4 (ix3 n s t')) t := by
  have eb : idx_main_v19 (idx_main_v20 (ix3 n s t)) = ix2 n s := funext fun a => Fin.ext (by
    match a with | ⟨0, _⟩ => rfl | ⟨1, _⟩ => rfl)
  rw [val_main_v22_apply, val_main_v21_apply, val_main_v20_apply, val_main_v19_apply, eb, rowMax_at,
    Ideal.hostUnary_exp_def, Ideal.subf_def]
  rfl

/-- The sum of a row's weights: the fold starts from the word of 0 and runs over the keys. -/
theorem weightSum_at (n : Fin 4) (s : Fin 2048) :
    val_main_v23 (F := Ideal) x0 x1 x2 x3 x4 (ix2 n s)
      = ∑ t : Fin 2048, weight (fun t' => val_main_v15 (F := Ideal) x0 x1 x2 x3 x4 (ix3 n s t')) t := by
  have ek : ∀ k : Fin 2048, idx_main_v23 (ix2 n s) k = ix3 n s k := fun k => funext fun a => Fin.ext (by
    match a with | ⟨0, _⟩ => rfl | ⟨1, _⟩ => rfl | ⟨2, _⟩ => rfl)
  rw [val_main_v23_apply, val_main_cst_2_apply, Ideal.ofBits_def, Ideal.ofBits_zero_f32, zero_add]
  simp only [ek, weight_at]

/-- The softmax weight of key t for query (n, s): the weight divided by the row's sum, which two broadcasts bring
    from (n, s) to every key of the row. -/
theorem prob_at (n : Fin 4) (s t : Fin 2048) :
    val_main_v26 (F := Ideal) x0 x1 x2 x3 x4 (ix3 n s t)
      = prob (fun t' => val_main_v15 (F := Ideal) x0 x1 x2 x3 x4 (ix3 n s t')) t := by
  have eb : idx_main_v24 (idx_main_v25 (ix3 n s t)) = ix2 n s := funext fun a => Fin.ext (by
    match a with | ⟨0, _⟩ => rfl | ⟨1, _⟩ => rfl)
  rw [val_main_v26_apply, val_main_v25_apply, val_main_v24_apply, eb, weightSum_at, weight_at, Ideal.hostDivf_def]
  rfl

/-! ## The attended row and the result -/

/-- Entry e of the context of query (n, s): the probabilities' combination, over the keys t, of the value rows. -/
theorem context_at (n : Fin 4) (s : Fin 2048) (e : Fin 1024) :
    val_main_v27 (F := Ideal) x0 x1 x2 x3 x4 x5 x6 (ix3 n s e)
      = context (affineRow (fun d => x0 (ix3 n s d)) (fun d f => x1 (ix2 d f)) (fun f => x2 (ix1 f)))
          (fun t => affineRow (fun d => x0 (ix3 n t d)) (fun d f => x3 (ix2 d f)) (fun f => x4 (ix1 f)))
          (fun t => affineRow (fun d => x0 (ix3 n t d)) (fun d f => x5 (ix2 d f)) (fun f => x6 (ix1 f))) e := by
  have el : ∀ k : Fin 2048, lidx_main_v27 (ix3 n s e) k = ix3 n s k := fun k => funext fun a => Fin.ext (by
    match a with | ⟨0, _⟩ => rfl | ⟨1, _⟩ => rfl | ⟨2, _⟩ => rfl)
  have er : ∀ k : Fin 2048, ridx_main_v27 (ix3 n s e) k = ix3 n k e := fun k => funext fun a => Fin.ext (by
    match a with | ⟨0, _⟩ => rfl | ⟨1, _⟩ => rfl | ⟨2, _⟩ => rfl)
  have eσ : (fun t' => val_main_v15 (F := Ideal) x0 x1 x2 x3 x4 (ix3 n s t'))
      = score (affineRow (fun d => x0 (ix3 n s d)) (fun d f => x1 (ix2 d f)) (fun f => x2 (ix1 f)))
          (fun t => affineRow (fun d => x0 (ix3 n t d)) (fun d f => x3 (ix2 d f)) (fun f => x4 (ix1 f))) :=
    funext fun t' => score_at x0 x1 x2 x3 x4 n s t'
  rw [val_main_v27_apply]
  simp only [el, er, prob_at, value_at, eσ]
  rfl

/-- Entry f of the result row of query (n, s): the affine image of the context row. -/
theorem out_at (n : Fin 4) (s : Fin 2048) (f : Fin 1024) :
    val_main_v31 (F := Ideal) x0 x1 x2 x3 x4 x5 x6 x7 x8 (ix3 n s f)
      = attendRow (affineRow (fun d => x0 (ix3 n s d)) (fun d f => x1 (ix2 d f)) (fun f => x2 (ix1 f)))
          (fun t => affineRow (fun d => x0 (ix3 n t d)) (fun d f => x3 (ix2 d f)) (fun f => x4 (ix1 f)))
          (fun t => affineRow (fun d => x0 (ix3 n t d)) (fun d f => x5 (ix2 d f)) (fun f => x6 (ix1 f)))
          (fun d f => x7 (ix2 d f)) (fun f => x8 (ix1 f)) f := by
  have ec : (fun d => val_main_v27 (F := Ideal) x0 x1 x2 x3 x4 x5 x6 (ix3 n s d))
      = context (affineRow (fun d => x0 (ix3 n s d)) (fun d f => x1 (ix2 d f)) (fun f => x2 (ix1 f)))
          (fun t => affineRow (fun d => x0 (ix3 n t d)) (fun d f => x3 (ix2 d f)) (fun f => x4 (ix1 f)))
          (fun t => affineRow (fun d => x0 (ix3 n t d)) (fun d f => x5 (ix2 d f)) (fun f => x6 (ix1 f))) :=
    funext fun d => context_at x0 x1 x2 x3 x4 x5 x6 n s d
  refine (affine_at (val_main_v27 (F := Ideal) x0 x1 x2 x3 x4 x5 x6) x7 x8 n s f).trans ?_
  rw [ec]
  rfl

/-- The reference's result, index by index, is the attention function of the nine arguments. -/
theorem ref_eq_G :
    Cert.ReferenceIdeal.Read.val_main_v31 (F := Ideal) x0 x1 x2 x3 x4 x5 x6 x7 x8
      = Cert.Attention.G x0 x1 x2 x3 x4 x5 x6 x7 x8 :=
  funext fun i => (congrArg (val_main_v31 (F := Ideal) x0 x1 x2 x3 x4 x5 x6 x7 x8) (eq_ix3 i)).trans
    (out_at x0 x1 x2 x3 x4 x5 x6 x7 x8 (i 0) (i 1) (i 2))

end Cert.ReferenceIdeal.RefValue

end
-- ==== Proof.lean ====
/-
  The certificate of a fused attention kernel against its jnp reference, on the extended reals.

  Both programs compute, for every batch entry n and query position s,

      out(n, s, ·) = softmax_t((q(n, s, ·) · k(n, t, ·)) / √64) · v(n, ·, ·) · Wo + bo,   q, k, v = x·W + b,

  the kernel in two regions (the three affine maps over blocks of 1024 flattened rows; then, per batch entry and
  block of 256 query rows, the scores times 1/8, the row maximum, the exponentials, their sum, the quotient, the
  product with the values and the output projection), the reference as whole-array operations. The specification
  (Proof/Spec.lean) states that function row by row; the kernel's result array is read off its run region by region
  (Proof/KernelRun.lean, Region0.lean, AttnBody.lean, Region1.lean, KernelValue.lean) and the reference's off its
  run operation by operation (Proof/RefValue.lean). The two spellings differ only in that dividing by √64 is
  multiplying by 1/8 and in one more maximum against the fold's starting value; both are laws of the extended reals
  that hold at every value, so the precondition is never opened. The ideal pass rewrote nothing, so the idealization
  claim is trivial; the three frames are the programs' runs with the results forgotten.
-/
import proofs.«103212_j63763084476445_2_alg».proof.Defs
import proofs.«103212_j63763084476445_2_alg».proof.Proof.Gen.Kernel
import proofs.«103212_j63763084476445_2_alg».proof.Proof.Gen.Kernel.Frame
import proofs.«103212_j63763084476445_2_alg».proof.Proof.Gen.KernelIdeal
import proofs.«103212_j63763084476445_2_alg».proof.Proof.Gen.KernelIdeal.Frame
import proofs.«103212_j63763084476445_2_alg».proof.Proof.Gen.ReferenceIdeal
import proofs.«103212_j63763084476445_2_alg».proof.Proof.Gen.ReferenceIdeal.Run
import proofs.«103212_j63763084476445_2_alg».proof.Proof.Gen.ReferenceIdeal.Read
import proofs.«103212_j63763084476445_2_alg».proof.Proof.Gen.Pre_finite_inputs
import proofs.«103212_j63763084476445_2_alg».proof.Proof.Spec
import proofs.«103212_j63763084476445_2_alg».proof.Proof.KernelValue
import proofs.«103212_j63763084476445_2_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- From memories that agree on the nine arguments both idealized programs end with the result array at the
    attention function G of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v31_eq, Cert.ReferenceIdeal.RefValue.ref_eq_G, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
